-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S14336x4096 : Shape := ⟨2, ![14336, 4096]⟩
abbrev S14336 : Shape := ⟨1, ![14336]⟩
abbrev S4096x14336 : Shape := ⟨2, ![4096, 14336]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S14336 : S_.BroadcastsInDim S14336 (![] : Fin 0 → Fin S14336.rank)
  reducesTo_S14336_S_d0 : S14336.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : IVec S14336x4096 32) (main_arg2 : FVec F S14336 .f32) (main_arg3 : IVec S14336x4096 32) (main_arg4 : FVec F S14336 .f32) (main_arg5 : IVec S4096x14336 32) (main_arg6 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  let main_v9 : FVec F S14336 .f32 := Host.absf main_arg4
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S14336x4096 : Shape := ⟨2, ![14336, 4096]⟩
abbrev S14336 : Shape := ⟨1, ![14336]⟩
abbrev S4096x14336 : Shape := ⟨2, ![4096, 14336]⟩
abbrev S4096 : Shape := ⟨1, ![4096]⟩
abbrev S256x4096 : Shape := ⟨2, ![256, 4096]⟩
abbrev S128x4096 : Shape := ⟨2, ![128, 4096]⟩
abbrev S128 : Shape := ⟨1, ![128]⟩
abbrev S4096x128 : Shape := ⟨2, ![4096, 128]⟩
abbrev S128x1 : Shape := ⟨2, ![128, 1]⟩
abbrev S256x128 : Shape := ⟨2, ![256, 128]⟩
abbrev S4096x1 : Shape := ⟨2, ![4096, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S14336x4096, .i32⟩
  | .hbm, ⟨2, _⟩ => ⟨S14336, .f32⟩
  | .hbm, ⟨3, _⟩ => ⟨S14336x4096, .i32⟩
  | .hbm, ⟨4, _⟩ => ⟨S14336, .f32⟩
  | .hbm, ⟨5, _⟩ => ⟨S4096x14336, .i32⟩
  | .hbm, ⟨6, _⟩ => ⟨S4096, .f32⟩
  | .hbm, ⟨7, _⟩ => ⟨S2048x4096, .f32⟩
  | .local _ .vmem, ⟨0, _⟩ => ⟨S256x4096, .f32⟩
  | .local _ .vmem, ⟨1, _⟩ => ⟨S128x4096, .i32⟩
  | .local _ .vmem, ⟨2, _⟩ => ⟨S128x4096, .i32⟩
  | .local _ .vmem, ⟨3, _⟩ => ⟨S128, .f32⟩
  | .local _ .vmem, ⟨4, _⟩ => ⟨S128, .f32⟩
  | .local _ .vmem, ⟨5, _⟩ => ⟨S128x4096, .i32⟩
  | .local _ .vmem, ⟨6, _⟩ => ⟨S128x4096, .i32⟩
  | .local _ .vmem, ⟨7, _⟩ => ⟨S128, .f32⟩
  | .local _ .vmem, ⟨8, _⟩ => ⟨S128, .f32⟩
  | .local _ .vmem, ⟨9, _⟩ => ⟨S4096x128, .i32⟩
  | .local _ .vmem, ⟨10, _⟩ => ⟨S4096x128, .i32⟩
  | .local _ .vmem, ⟨11, _⟩ => ⟨S4096, .f32⟩
  | .local _ .vmem, ⟨12, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 112], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128_S128_0 : ∀ a, (![0] : Fin 1 → Nat) a + S128.size a ≤ S128.size a
  h_S128 : 0 < S128.numel
  shapeCasts_S128_S128x1 : S128.ShapeCasts S128x1
  broadcasts_S128x1_S128x4096 : S128x1.Broadcasts S128x4096
  inb_S4096x128_S4096x128_0_0 : ∀ a, (![0, 0] : Fin 2 → Nat) a + S4096x128.size a ≤ S4096x128.size a
  h_S4096x128 : 0 < S4096x128.numel
  inb_S4096_S4096_0 : ∀ a, (![0] : Fin 1 → Nat) a + S4096.size a ≤ S4096.size a
  h_S4096 : 0 < S4096.numel
  shapeCasts_S4096_S4096x1 : S4096.ShapeCasts S4096x1
  broadcasts_S4096x1_S4096x128 : S4096x1.Broadcasts S4096x128
  shapeCasts_S256x4096_S256x4096 : S256x4096.ShapeCasts S256x4096
  dot_S256x4096_S128x4096_S256x128_1_1_0_0_n_n_wf : DotDims.WF S256x4096 S128x4096 S256x128 [1] [1] [0] [0] [] []
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S14336x4096.size a
  hwx0_1 : ∀ i : grid0.Coords, EltTy.bits .i32 = 32 ∨ (Rect.block (s := S14336x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S14336.size a
  hwx0_2 : ∀ i : grid0.Coords, EltTy.bits .f32 = 32 ∨ (Rect.block (s := S14336) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S14336x4096.size a
  hwx0_3 : ∀ i : grid0.Coords, EltTy.bits .i32 = 32 ∨ (Rect.block (s := S14336x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S14336.size a
  hwx0_4 : ∀ i : grid0.Coords, EltTy.bits .f32 = 32 ∨ (Rect.block (s := S14336) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x14336.size a
  hwx0_5 : ∀ i : grid0.Coords, EltTy.bits .i32 = 32 ∨ (Rect.block (s := S4096x14336) S4096x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S2048x4096.size a
  hwx0_7 : ∀ i : grid0.Coords, EltTy.bits .f32 = 32 ∨ (Rect.block (s := S2048x4096) S256x4096.size (cc0_transform_7 i) (hinb0_7 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x4096.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S14336x4096 : Shape := ⟨2, ![14336, 4096]⟩
abbrev S14336 : Shape := ⟨1, ![14336]⟩
abbrev S4096x14336 : Shape := ⟨2, ![4096, 14336]⟩
abbrev S4096 : Shape := ⟨1, ![4096]⟩
abbrev S_ : Shape := ⟨0, ![]⟩
abbrev S14336x1 : Shape := ⟨2, ![14336, 1]⟩
abbrev S4096x1 : Shape := ⟨2, ![4096, 1]⟩
abbrev S2048x14336 : Shape := ⟨2, ![2048, 14336]⟩

abbrev nBuf : Space → Nat
  | .hbm => 44
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S14336x4096, .i32⟩
  | .hbm, ⟨2, _⟩ => ⟨S14336, .f32⟩
  | .hbm, ⟨3, _⟩ => ⟨S14336x4096, .i32⟩
  | .hbm, ⟨4, _⟩ => ⟨S14336, .f32⟩
  | .hbm, ⟨5, _⟩ => ⟨S4096x14336, .i32⟩
  | .hbm, ⟨6, _⟩ => ⟨S4096, .f32⟩
  | .hbm, ⟨7, _⟩ => ⟨S14336x4096, .f32⟩
  | .hbm, ⟨8, _⟩ => ⟨S_, .f32⟩
  | .hbm, ⟨9, _⟩ => ⟨S14336x4096, .f32⟩
  | .hbm, ⟨10, _⟩ => ⟨S14336x4096, .f32⟩
  | .hbm, ⟨11, _⟩ => ⟨S14336x1, .f32⟩
  | .hbm, ⟨12, _⟩ => ⟨S14336x4096, .f32⟩
  | .hbm, ⟨13, _⟩ => ⟨S14336x4096, .f32⟩
  | .hbm, ⟨14, _⟩ => ⟨S14336x4096, .f32⟩
  | .hbm, ⟨15, _⟩ => ⟨S_, .f32⟩
  | .hbm, ⟨16, _⟩ => ⟨S14336x4096, .f32⟩
  | .hbm, ⟨17, _⟩ => ⟨S14336x4096, .f32⟩
  | .hbm, ⟨18, _⟩ => ⟨S14336x1, .f32⟩
  | .hbm, ⟨19, _⟩ => ⟨S14336x4096, .f32⟩
  | .hbm, ⟨20, _⟩ => ⟨S14336x4096, .f32⟩
  | .hbm, ⟨21, _⟩ => ⟨S4096x14336, .f32⟩
  | .hbm, ⟨22, _⟩ => ⟨S_, .f32⟩
  | .hbm, ⟨23, _⟩ => ⟨S4096x14336, .f32⟩
  | .hbm, ⟨24, _⟩ => ⟨S4096x14336, .f32⟩
  | .hbm, ⟨25, _⟩ => ⟨S4096x1, .f32⟩
  | .hbm, ⟨26, _⟩ => ⟨S4096x14336, .f32⟩
  | .hbm, ⟨27, _⟩ => ⟨S4096x14336, .f32⟩
  | .hbm, ⟨28, _⟩ => ⟨S4096x14336, .f32⟩
  | .hbm, ⟨29, _⟩ => ⟨S2048x14336, .f32⟩
  | .hbm, ⟨30, _⟩ => ⟨S4096x14336, .f32⟩
  | .hbm, ⟨31, _⟩ => ⟨S2048x14336, .f32⟩
  | .hbm, ⟨32, _⟩ => ⟨S2048x14336, .f32⟩
  | .hbm, ⟨33, _⟩ => ⟨S2048x14336, .f32⟩
  | .hbm, ⟨34, _⟩ => ⟨S_, .f32⟩
  | .hbm, ⟨35, _⟩ => ⟨S2048x14336, .f32⟩
  | .hbm, ⟨36, _⟩ => ⟨S2048x14336, .f32⟩
  | .hbm, ⟨37, _⟩ => ⟨S_, .f32⟩
  | .hbm, ⟨38, _⟩ => ⟨S2048x14336, .f32⟩
  | .hbm, ⟨39, _⟩ => ⟨S2048x14336, .f32⟩
  | .hbm, ⟨40, _⟩ => ⟨S2048x14336, .f32⟩
  | .hbm, ⟨41, _⟩ => ⟨S2048x14336, .f32⟩
  | .hbm, ⟨42, _⟩ => ⟨S14336x4096, .f32⟩
  | .hbm, ⟨43, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S_S14336x4096 : S_.BroadcastsInDim S14336x4096 (![] : Fin 0 → Fin S14336x4096.rank)
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S_S4096x14336 : S_.BroadcastsInDim S4096x14336 (![] : Fin 0 → Fin S4096x14336.rank)
  bcast_S4096_S4096x1_0 : S4096.BroadcastsInDim S4096x1 (![0] : Fin 1 → Fin S4096x1.rank)
  bcast_S4096x1_S4096x14336_0_1 : S4096x1.BroadcastsInDim S4096x14336 (![0, 1] : Fin 2 → Fin S4096x14336.rank)
  transposes_S14336x4096_S4096x14336_1_0 : S14336x4096.Transposes [1, 0] S4096x14336
  bcast_S_S2048x14336 : S_.BroadcastsInDim S2048x14336 (![] : Fin 0 → Fin S2048x14336.rank)
  transposes_S4096x14336_S14336x4096_1_0 : S4096x14336.Transposes [1, 0] S14336x4096
  dot_S2048x4096_S4096x14336_S2048x14336_1_0_0_1_n_n_wf : DotDims.WF S2048x4096 S4096x14336 S2048x14336 [1] [0] [0] [1] [] []
  dot_S2048x14336_S14336x4096_S2048x4096_1_0_0_1_n_n_wf : DotDims.WF S2048x14336 S14336x4096 S2048x4096 [1] [0] [0] [1] [] []

variable [Facts₀]

def dot_S2048x4096_S4096x14336_S2048x14336_1_0_0_1_n_n : DotDims S2048x4096 S4096x14336 S2048x14336 where
  lhsContracting := [1]
  rhsContracting := [0]
  lhsNonContracting := [0]
  rhsNonContracting := [1]
  lhsBatch := []
  rhsBatch := []
  wf := dot_S2048x4096_S4096x14336_S2048x14336_1_0_0_1_n_n_wf
def dot_S2048x14336_S14336x4096_S2048x4096_1_0_0_1_n_n : DotDims S2048x14336 S14336x4096 S2048x4096 where
  lhsContracting := [1]
  rhsContracting := [0]
  lhsNonContracting := [0]
  rhsNonContracting := [1]
  lhsBatch := []
  rhsBatch := []
  wf := dot_S2048x14336_S14336x4096_S2048x4096_1_0_0_1_n_n_wf

class Facts : Prop extends Facts₀ where

variable [Facts]
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.QuantSwiGLU.lean ====
/-
  The quantised gated feed-forward layer at exact arithmetic, entry by entry.

  A weight matrix is stored as integer codes with one scale per output row: the entry (f, j) of the real matrix is
  (code(f, j) - 128) · scale(f). With three such matrices W1, W3 (rows indexed by the inner axis) and W2 (rows indexed
  by the output column), the layer sends the input x to

      out(r, c) = Σ_f  h(r, f) · W2(c, f),     h(r, f) = silu(g(r, f)) · u(r, f),
      g(r, f) = Σ_j x(r, j) · W1(f, j),        u(r, f) = Σ_j x(r, j) · W3(f, j),

  where silu(g) = g · σ(g) and σ(g) = 1 / (1 + e^(-g)) is the logistic function. Everything is read on the extended
  reals with the exact operations; no entry is asked to be finite, because the two facts proved here hold at the
  infinities too:

  * σ written as one operation and σ written as "one over one plus the exponential of the negation" are the same
    function of an extended real, by the definition of the logistic function there;
  * the sum over the inner axis of length n·b can be taken tile by tile — n tiles of b consecutive positions — since
    a finite sum in a commutative monoid depends neither on the order nor on the grouping of its terms.
-/
import Idealize.ShloMosaic.PureOps.Ideal.Laws
import Idealize.ShloMosaic.Lib.ValueIdx
import proofs.«149186_j30820685316560_1_alg».proof.Proof.LibTileSums

noncomputable section

namespace QuantSwiGLU

open Idealize.ShloMosaic Idealize.ShloMosaic.ValueIdx

/-- A two-axis array viewed by its two coordinates. -/
abbrev mat {A B : ℕ} {α : Type} (v : (⟨2, ![A, B]⟩ : Shape).Idx → α) : Fin A → Fin B → α := fun a b => v (ix2 a b)

/-- A one-axis array viewed by its coordinate. -/
abbrev vec {A : ℕ} {α : Type} (v : (⟨1, ![A]⟩ : Shape).Idx → α) : Fin A → α := fun a => v (ix1 a)

/-- A stored weight made real: the integer code read as a number, recentred by 128 (the word 0x43000000), times the
    scale of its row. -/
def deq (q : BitVec 32) (s : EReal) : EReal :=
  FloatOps.mulf (F := Ideal) (φ := .f32)
    (FloatOps.subf (F := Ideal) (φ := .f32) (FloatOps.sitofp (F := Ideal) .f32 q)
      (FloatOps.ofBits (F := Ideal) .f32 0x43000000#32)) s

/-- The input's row r against the dequantised matrix's row f: Σ_j x(r, j) · W(f, j). -/
def proj {M K N : ℕ} (x : Fin M → Fin K → EReal) (q : Fin N → Fin K → BitVec 32) (s : Fin N → EReal)
    (r : Fin M) (f : Fin N) : EReal :=
  ∑ j : Fin K, x r j * deq (q f j) (s f)

/-- silu(g) = g · σ(g), σ the logistic function. -/
def silu (g : EReal) : EReal :=
  FloatOps.mulf (F := Ideal) (φ := .f32) g (FloatOps.logistic (F := Ideal) (φ := .f32) g)

/-- The gated inner activation h(r, f) = silu(g(r, f)) · u(r, f). -/
def hidden {M K N : ℕ} (x : Fin M → Fin K → EReal) (q1 : Fin N → Fin K → BitVec 32) (s1 : Fin N → EReal)
    (q3 : Fin N → Fin K → BitVec 32) (s3 : Fin N → EReal) (r : Fin M) (f : Fin N) : EReal :=
  FloatOps.mulf (F := Ideal) (φ := .f32) (silu (proj x q1 s1 r f)) (proj x q3 s3 r f)

/-- A projection depends only on the input's row and the matrix's row and scale it reads: two settings that agree there
    give the same value (the coordinates may live on axes of different lengths, as a block's and the array's do). -/
theorem proj_congr {M M' K N N' : ℕ} (x : Fin M → Fin K → EReal) (x' : Fin M' → Fin K → EReal)
    (q : Fin N → Fin K → BitVec 32) (q' : Fin N' → Fin K → BitVec 32) (s : Fin N → EReal) (s' : Fin N' → EReal)
    (r : Fin M) (r' : Fin M') (f : Fin N) (f' : Fin N')
    (hx : ∀ j, x r j = x' r' j) (hq : ∀ j, q f j = q' f' j) (hs : s f = s' f') :
    proj x q s r f = proj x' q' s' r' f' := by
  unfold proj
  exact Finset.sum_congr rfl fun j _ => by rw [hx j, hq j, hs]

/-- The same for the gated inner activation. -/
theorem hidden_congr {M M' K N N' : ℕ} (x : Fin M → Fin K → EReal) (x' : Fin M' → Fin K → EReal)
    (q1 : Fin N → Fin K → BitVec 32) (q1' : Fin N' → Fin K → BitVec 32) (s1 : Fin N → EReal) (s1' : Fin N' → EReal)
    (q3 : Fin N → Fin K → BitVec 32) (q3' : Fin N' → Fin K → BitVec 32) (s3 : Fin N → EReal) (s3' : Fin N' → EReal)
    (r : Fin M) (r' : Fin M') (f : Fin N) (f' : Fin N')
    (hx : ∀ j, x r j = x' r' j) (hq1 : ∀ j, q1 f j = q1' f' j) (hs1 : s1 f = s1' f')
    (hq3 : ∀ j, q3 f j = q3' f' j) (hs3 : s3 f = s3' f') :
    hidden x q1 s1 q3 s3 r f = hidden x' q1' s1' q3' s3' r' f' := by
  unfold hidden
  rw [proj_congr x x' q1 q1' s1 s1' r r' f f' hx hq1 hs1, proj_congr x x' q3 q3' s3 s3' r r' f f' hx hq3 hs3]

/-- The layer's output entry out(r, c) = Σ_f h(r, f) · W2(c, f). -/
def out {M K N H : ℕ} (x : Fin M → Fin K → EReal) (q1 : Fin N → Fin K → BitVec 32) (s1 : Fin N → EReal)
    (q3 : Fin N → Fin K → BitVec 32) (s3 : Fin N → EReal) (q2 : Fin H → Fin N → BitVec 32) (s2 : Fin H → EReal)
    (r : Fin M) (c : Fin H) : EReal :=
  ∑ f : Fin N, hidden x q1 s1 q3 s3 r f * deq (q2 c f) (s2 c)

/-- The inner position n's term of out(r, c), as a function of every natural number (zero past the axis' end, where it
    is never read). -/
def term {M K N H : ℕ} (x : Fin M → Fin K → EReal) (q1 : Fin N → Fin K → BitVec 32) (s1 : Fin N → EReal)
    (q3 : Fin N → Fin K → BitVec 32) (s3 : Fin N → EReal) (q2 : Fin H → Fin N → BitVec 32) (s2 : Fin H → EReal)
    (r : Fin M) (c : Fin H) (n : ℕ) : EReal :=
  if h : n < N then hidden x q1 s1 q3 s3 r ⟨n, h⟩ * deq (q2 c ⟨n, h⟩) (s2 c) else 0

/-- The term at a position inside the axis. -/
theorem term_of_lt {M K N H : ℕ} (x : Fin M → Fin K → EReal) (q1 : Fin N → Fin K → BitVec 32) (s1 : Fin N → EReal)
    (q3 : Fin N → Fin K → BitVec 32) (s3 : Fin N → EReal) (q2 : Fin H → Fin N → BitVec 32) (s2 : Fin H → EReal)
    (r : Fin M) (c : Fin H) (n : ℕ) (h : n < N) :
    term x q1 s1 q3 s3 q2 s2 r c n = hidden x q1 s1 q3 s3 r ⟨n, h⟩ * deq (q2 c ⟨n, h⟩) (s2 c) :=
  dif_pos h

/-- The output entry taken tile by tile: with the inner axis of length N = n · b, out(r, c) is the sum over the n
    tiles k of the sum over the b positions b·k + j of tile k. -/
theorem out_eq_tiles {M K N H : ℕ} (n b : ℕ) (hN : N = n * b) (x : Fin M → Fin K → EReal)
    (q1 : Fin N → Fin K → BitVec 32) (s1 : Fin N → EReal) (q3 : Fin N → Fin K → BitVec 32) (s3 : Fin N → EReal)
    (q2 : Fin H → Fin N → BitVec 32) (s2 : Fin H → EReal) (r : Fin M) (c : Fin H) :
    out x q1 s1 q3 s3 q2 s2 r c
      = ∑ k ∈ Finset.range n, ∑ j : Fin b, term x q1 s1 q3 s3 q2 s2 r c (b * k + j.val) := by
  rw [← LibTileSums.sum_tiles n b N hN (term x q1 s1 q3 s3 q2 s2 r c)]
  exact Finset.sum_congr rfl fun f _ => (term_of_lt x q1 s1 q3 s3 q2 s2 r c f.val f.isLt).symm

/-- The word 0x3F800000 is the number one. -/
theorem one_f32 : Ideal.ofBits .f32 0x3F800000#32 = 1 := by
  simp [Ideal.ofBits, Ideal.ieee, -EReal.coe_mul]; norm_num

/-- g times "one over (one plus the exponential of minus g)", in the operations a host program spells the logistic
    function with, is silu(g): on the extended reals the logistic function IS that expression. -/
theorem host_silu_eq (g : EReal) :
    FloatOps.mulf (F := Ideal) (φ := .f32) g
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) g))))
      = silu g := by
  rw [Ideal.ofBits_def, one_f32]
  rfl

end QuantSwiGLU

end
-- ==== Proof.ReferenceIsLayer.lean ====
/-
  The reference computes the quantised gated feed-forward layer.

  The reference program dequantises the three weight matrices whole, transposes each, and applies three matrix
  products with the gate in between; its logistic function is spelt out as one over one plus the exponential of the
  negation. Read one operation at a time at an index, each stage is the corresponding stage of the layer:

  * a dequantised weight at (f, j) is (code(f, j) - 128) · scale(f) — the scale's two broadcasts read the scale at the
    row index;
  * a transposed weight at (j, f) is the weight at (f, j), so a product of x with it at (r, f) is Σ_j x(r, j) · W(f, j);
  * the gate's "g · (1 / (1 + e^(-g)))" is silu(g), the logistic function being that expression on the extended reals;
  * the last product at (r, c) is Σ_f h(r, f) · W2(c, f).

  No entry is asked to be finite: every step is a reading of an operation at an index, or the definition of the
  logistic function.
-/
import proofs.«149186_j30820685316560_1_alg».proof.Proof.Gen.ReferenceIdeal.Read
import proofs.«149186_j30820685316560_1_alg».proof.Proof.QuantSwiGLU

noncomputable section

namespace Cert.ReferenceIdeal.RefValue

open Cert.ReferenceIdeal Cert.ReferenceIdeal.Gen Cert.ReferenceIdeal.Read Idealize.ShloMosaic Idealize.ShloMosaic.ValueIdx
open QuantSwiGLU

variable (x0 : (⟨S2048x4096, .f32⟩ : BufTy).Contents (Elt Ideal))
  (x1 : (⟨S14336x4096, .i32⟩ : BufTy).Contents (Elt Ideal)) (x2 : (⟨S14336, .f32⟩ : BufTy).Contents (Elt Ideal))
  (x3 : (⟨S14336x4096, .i32⟩ : BufTy).Contents (Elt Ideal)) (x4 : (⟨S14336, .f32⟩ : BufTy).Contents (Elt Ideal))
  (x5 : (⟨S4096x14336, .i32⟩ : BufTy).Contents (Elt Ideal)) (x6 : (⟨S4096, .f32⟩ : BufTy).Contents (Elt Ideal))

/-- The first weight matrix made real, at (f, j): (code(f, j) - 128) · scale(f). -/
theorem w1_apply (f : Fin 14336) (j : Fin 4096) :
    val_main_v5 (F := Ideal) x1 x2 (ix2 f j) = deq (x1 (ix2 f j)) (x2 (ix1 f)) := by
  have e : idx_main_v3 (idx_main_v4 (ix2 f j)) = ix1 f := funext fun a => by match a with | ⟨0, _⟩ => rfl
  rw [val_main_v5_apply, val_main_v2_apply, val_main_v0_apply, val_main_v1_apply, val_main_cst_apply,
    val_main_v4_apply, val_main_v3_apply, e]
  rfl

/-- The third weight matrix made real, at (f, j). -/
theorem w3_apply (f : Fin 14336) (j : Fin 4096) :
    val_main_v11 (F := Ideal) x3 x4 (ix2 f j) = deq (x3 (ix2 f j)) (x4 (ix1 f)) := by
  have e : idx_main_v9 (idx_main_v10 (ix2 f j)) = ix1 f := funext fun a => by match a with | ⟨0, _⟩ => rfl
  rw [val_main_v11_apply, val_main_v8_apply, val_main_v6_apply, val_main_v7_apply, val_main_cst_0_apply,
    val_main_v10_apply, val_main_v9_apply, e]
  rfl

/-- The second weight matrix made real, at (c, f): (code(c, f) - 128) · scale(c). -/
theorem w2_apply (c : Fin 4096) (f : Fin 14336) :
    val_main_v17 (F := Ideal) x5 x6 (ix2 c f) = deq (x5 (ix2 c f)) (x6 (ix1 c)) := by
  have e : idx_main_v15 (idx_main_v16 (ix2 c f)) = ix1 c := funext fun a => by match a with | ⟨0, _⟩ => rfl
  rw [val_main_v17_apply, val_main_v14_apply, val_main_v12_apply, val_main_v13_apply, val_main_cst_1_apply,
    val_main_v16_apply, val_main_v15_apply, e]
  rfl

/-- The gate's pre-activation at (r, f): Σ_j x(r, j) · W1(f, j) — the product with the transposed matrix. -/
theorem gate_apply (r : Fin 2048) (f : Fin 14336) :
    val_main_v19 (F := Ideal) x0 x1 x2 (ix2 r f) = proj (mat x0) (mat x1) (vec x2) r f := by
  rw [val_main_v19_apply]
  refine Finset.sum_congr rfl fun k _ => ?_
  have el : lidx_main_v19 (ix2 r f) k = ix2 r k := funext fun a => by match a with | ⟨0, _⟩ => rfl | ⟨1, _⟩ => rfl
  have er : idx_main_v18 (ridx_main_v19 (ix2 r f) k) = ix2 f k := funext fun a => by
    match a with | ⟨0, _⟩ => rfl | ⟨1, _⟩ => rfl
  rw [el, val_main_v18_apply, er, w1_apply]

/-- The up-projection at (r, f): Σ_j x(r, j) · W3(f, j). -/
theorem up_apply (r : Fin 2048) (f : Fin 14336) :
    val_main_v21 (F := Ideal) x0 x3 x4 (ix2 r f) = proj (mat x0) (mat x3) (vec x4) r f := by
  rw [val_main_v21_apply]
  refine Finset.sum_congr rfl fun k _ => ?_
  have el : lidx_main_v21 (ix2 r f) k = ix2 r k := funext fun a => by match a with | ⟨0, _⟩ => rfl | ⟨1, _⟩ => rfl
  have er : idx_main_v20 (ridx_main_v21 (ix2 r f) k) = ix2 f k := funext fun a => by
    match a with | ⟨0, _⟩ => rfl | ⟨1, _⟩ => rfl
  rw [el, val_main_v20_apply, er, w3_apply]

/-- The gate at (r, f): the pre-activation times one over one plus the exponential of its negation, which is silu
    of the pre-activation. -/
theorem silu_apply (r : Fin 2048) (f : Fin 14336) :
    val_main_v22 (F := Ideal) x0 x1 x2 (ix2 r f) = silu (proj (mat x0) (mat x1) (vec x2) r f) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply, gate_apply, host_silu_eq]

/-- The gated inner activation at (r, f). -/
theorem hidden_apply (r : Fin 2048) (f : Fin 14336) :
    val_main_v23 (F := Ideal) x0 x1 x2 x3 x4 (ix2 r f)
      = hidden (mat x0) (mat x1) (vec x2) (mat x3) (vec x4) r f := by
  rw [val_main_v23_apply, silu_apply, up_apply]
  rfl

/-- The reference's result at (r, c) is the layer's output entry. -/
theorem result_apply (r : Fin 2048) (c : Fin 4096) :
    val_main_v25 (F := Ideal) x0 x1 x2 x3 x4 x5 x6 (ix2 r c)
      = out (mat x0) (mat x1) (vec x2) (mat x3) (vec x4) (mat x5) (vec x6) r c := by
  rw [val_main_v25_apply]
  refine Finset.sum_congr rfl fun k _ => ?_
  have el : lidx_main_v25 (ix2 r c) k = ix2 r k := funext fun a => by match a with | ⟨0, _⟩ => rfl | ⟨1, _⟩ => rfl
  have er : idx_main_v24 (ridx_main_v25 (ix2 r c) k) = ix2 c k := funext fun a => by
    match a with | ⟨0, _⟩ => rfl | ⟨1, _⟩ => rfl
  rw [el, hidden_apply, val_main_v24_apply, er, w2_apply]

end Cert.ReferenceIdeal.RefValue

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«149186_j30820685316560_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.KernelTile.lean ====
/-
  One grid point's work, read at an entry.

  At a grid point the kernel body holds a block of 256 input rows, a tile of 128 rows of each of the first and third
  weight matrices with their scales, and the matching tile of 128 columns of the second weight matrix with all its
  scales. It dequantises the three tiles, forms the two products of the input block with the first and third tiles
  (each contracted along the 4096 input features), gates them, and adds the product of the gated 256 × 128 block with
  the second tile (contracted along the tile's 128 positions) to what the output block held. Read at an entry, at exact
  arithmetic, where a change of float format is the identity:

  * a dequantised tile at (f, j) is (code(f, j) - 128) · scale(f): the scale column, cast from a vector to a 128 × 1
    column and broadcast along the row, reads the scale at f;
  * a product "M × K by N × K, both contracted on the second axis" into the zero block is, at (p, f), the sum over j of
    the left row p's entry j times the right ROW f's entry j;
  * the gated block at (p, f) is therefore the layer's inner activation of the block-local input and tiles;
  * the body's stored value at (p, c) is the output block's previous entry plus the sum over the tile's 128 positions
    of the gated entry times the second tile's entry (c, position), and the value stored first at a reset point is 0.

  Everything is stated over variable blocks; nothing is asked to be finite.
-/
import proofs.«149186_j30820685316560_1_alg».proof.Proof.Gen.KernelIdeal.Skeleton
import proofs.«149186_j30820685316560_1_alg».proof.Proof.QuantSwiGLU
import proofs.«149186_j30820685316560_1_alg».proof.Proof.LibMatmulNT
import proofs.«149186_j30820685316560_1_alg».proof.Proof.LibColumnOps
import Idealize.ShloMosaic.Lib.Pipeline.Value

noncomputable section

namespace Cert.KernelIdeal.Tile

open Cert.KernelIdeal Cert.KernelIdeal.Gen Idealize.ShloMosaic Idealize.ShloMosaic.ValueIdx
open QuantSwiGLU

/-- A scale vector cast to a column and broadcast along the rows reads, at (f, j), the scale of row f. -/
theorem scale_col_apply {A B : ℕ} (s : (⟨1, ![A]⟩ : Shape).Idx → EReal)
    (hc : (⟨1, ![A]⟩ : Shape).ShapeCasts ⟨2, ![A, 1]⟩) (hb : (⟨2, ![A, 1]⟩ : Shape).Broadcasts ⟨2, ![A, B]⟩)
    (f : Fin A) (j : Fin B) :
    broadcastTo ⟨2, ![A, B]⟩ (shapeCast ⟨2, ![A, 1]⟩ s hc) hb (ix2 f j) = s (ix1 f) := by
  rw [LibColumnOps.broadcastTo_col_apply, LibKeepdims.shapeCast_col_apply]

/-- A dequantised tile at (f, j): (code(f, j) - 128) · scale(f). -/
theorem deq_tile_apply {A B : ℕ} (q : (⟨2, ![A, B]⟩ : Shape).Idx → BitVec 32) (s : (⟨1, ![A]⟩ : Shape).Idx → EReal)
    (hc : (⟨1, ![A]⟩ : Shape).ShapeCasts ⟨2, ![A, 1]⟩) (hb : (⟨2, ![A, 1]⟩ : Shape).Broadcasts ⟨2, ![A, B]⟩)
    (f : Fin A) (j : Fin B) :
    mulf (F := Ideal) (φ := .f32)
        (subf (sitofp (F := Ideal) .f32 q) (broadcast ⟨2, ![A, B]⟩ (Scalar.ofBits (F := Ideal) .f32 0x43000000#32)))
        (broadcastTo ⟨2, ![A, B]⟩ (shapeCast ⟨2, ![A, 1]⟩ s hc) hb) (ix2 f j)
      = deq (q (ix2 f j)) (s (ix1 f)) := by
  show FloatOps.mulf (F := Ideal) (φ := .f32) _ (broadcastTo ⟨2, ![A, B]⟩ (shapeCast ⟨2, ![A, 1]⟩ s hc) hb (ix2 f j)) = _
  rw [scale_col_apply]
  rfl

/-! ## The contraction records' operand indices -/

theorem gate_lhs0 (j : S256x128.Idx) (k : dot_S256x4096_S128x4096_S256x128_1_1_0_0_n_n.contr.Idx) :
    (dot_S256x4096_S128x4096_S256x128_1_1_0_0_n_n.lhsIdx j k 0).val = (j 0).val := by
  unfold DotDims.lhsIdx
  rw [dif_neg (show ¬(0 : Fin S256x4096.rank) ∈ dot_S256x4096_S128x4096_S256x128_1_1_0_0_n_n.lhsBatch by decide),
    dif_pos (show (0 : Fin S256x4096.rank) ∈ dot_S256x4096_S128x4096_S256x128_1_1_0_0_n_n.lhsNonContracting by decide)]
  rfl
theorem gate_lhs1 (j : S256x128.Idx) (k : dot_S256x4096_S128x4096_S256x128_1_1_0_0_n_n.contr.Idx) :
    (dot_S256x4096_S128x4096_S256x128_1_1_0_0_n_n.lhsIdx j k 1).val = (k ⟨0, by decide⟩).val :=
  dot_S256x4096_S128x4096_S256x128_1_1_0_0_n_n.lhsIdx_val_of_single rfl j k
theorem gate_rhs0 (j : S256x128.Idx) (k : dot_S256x4096_S128x4096_S256x128_1_1_0_0_n_n.contr.Idx) :
    (dot_S256x4096_S128x4096_S256x128_1_1_0_0_n_n.rhsIdx j k 0).val = (j 1).val := by
  unfold DotDims.rhsIdx
  rw [dif_neg (show ¬(0 : Fin S128x4096.rank) ∈ dot_S256x4096_S128x4096_S256x128_1_1_0_0_n_n.rhsBatch by decide),
    dif_pos (show (0 : Fin S128x4096.rank) ∈ dot_S256x4096_S128x4096_S256x128_1_1_0_0_n_n.rhsNonContracting by decide)]
  rfl
theorem gate_rhs1 (j : S256x128.Idx) (k : dot_S256x4096_S128x4096_S256x128_1_1_0_0_n_n.contr.Idx) :
    (dot_S256x4096_S128x4096_S256x128_1_1_0_0_n_n.rhsIdx j k 1).val = (k ⟨0, by decide⟩).val :=
  dot_S256x4096_S128x4096_S256x128_1_1_0_0_n_n.rhsIdx_val_of_single rfl j k

theorem down_lhs0 (j : S256x4096.Idx) (k : dot_S256x128_S4096x128_S256x4096_1_1_0_0_n_n.contr.Idx) :
    (dot_S256x128_S4096x128_S256x4096_1_1_0_0_n_n.lhsIdx j k 0).val = (j 0).val := by
  unfold DotDims.lhsIdx
  rw [dif_neg (show ¬(0 : Fin S256x128.rank) ∈ dot_S256x128_S4096x128_S256x4096_1_1_0_0_n_n.lhsBatch by decide),
    dif_pos (show (0 : Fin S256x128.rank) ∈ dot_S256x128_S4096x128_S256x4096_1_1_0_0_n_n.lhsNonContracting by decide)]
  rfl
theorem down_lhs1 (j : S256x4096.Idx) (k : dot_S256x128_S4096x128_S256x4096_1_1_0_0_n_n.contr.Idx) :
    (dot_S256x128_S4096x128_S256x4096_1_1_0_0_n_n.lhsIdx j k 1).val = (k ⟨0, by decide⟩).val :=
  dot_S256x128_S4096x128_S256x4096_1_1_0_0_n_n.lhsIdx_val_of_single rfl j k
theorem down_rhs0 (j : S256x4096.Idx) (k : dot_S256x128_S4096x128_S256x4096_1_1_0_0_n_n.contr.Idx) :
    (dot_S256x128_S4096x128_S256x4096_1_1_0_0_n_n.rhsIdx j k 0).val = (j 1).val := by
  unfold DotDims.rhsIdx
  rw [dif_neg (show ¬(0 : Fin S4096x128.rank) ∈ dot_S256x128_S4096x128_S256x4096_1_1_0_0_n_n.rhsBatch by decide),
    dif_pos (show (0 : Fin S4096x128.rank) ∈ dot_S256x128_S4096x128_S256x4096_1_1_0_0_n_n.rhsNonContracting by decide)]
  rfl
theorem down_rhs1 (j : S256x4096.Idx) (k : dot_S256x128_S4096x128_S256x4096_1_1_0_0_n_n.contr.Idx) :
    (dot_S256x128_S4096x128_S256x4096_1_1_0_0_n_n.rhsIdx j k 1).val = (k ⟨0, by decide⟩).val :=
  dot_S256x128_S4096x128_S256x4096_1_1_0_0_n_n.rhsIdx_val_of_single rfl j k

/-! ## The body's values at an entry -/

/-- The input block against a dequantised tile, at (p, f): Σ_j x(p, j) · W(f, j) over block-local coordinates. -/
theorem proj_tile_apply (x0 : Vec Ideal S256x4096 .f32) (q : Vec Ideal S128x4096 .i32) (s : Vec Ideal S128 .f32)
    (p : Fin 256) (f : Fin 128) :
    matmul (F := Ideal) dot_S256x4096_S128x4096_S256x128_1_1_0_0_n_n none (truncf .bf16 x0 bitsLt_bf16_f32)
        (truncf .bf16 (mulf (subf (sitofp .f32 q) (broadcast S128x4096 (Scalar.ofBits .f32 0x43000000#32)))
          (broadcastTo S128x4096 (shapeCast S128x1 s shapeCasts_S128_S128x1) broadcasts_S128x1_S128x4096)) bitsLt_bf16_f32)
        (constant S256x128 .f32 0x00000000#32) (ix2 p f)
      = proj (mat x0) (mat q) (vec s) p f := by
  refine (LibMatmulNT.matmul_nt_zero_apply dot_S256x4096_S128x4096_S256x128_1_1_0_0_n_n rfl rfl
    gate_lhs0 gate_lhs1 gate_rhs0 gate_rhs1 none _ _ (ix2 p f)).trans ?_
  exact Finset.sum_congr rfl fun k _ =>
    congrArg (x0 (ix2 p k) * ·) (deq_tile_apply q s shapeCasts_S128_S128x1 broadcasts_S128x1_S128x4096 f k)

/-- The gated 256 × 128 block at (p, f): the layer's inner activation of the block-local input and tiles. -/
theorem gated_apply (x0 : Vec Ideal S256x4096 .f32) (x1 : Vec Ideal S128x4096 .i32) (x2 : Vec Ideal S128 .f32)
    (x3 : Vec Ideal S128x4096 .i32) (x4 : Vec Ideal S128 .f32) (p : Fin 256) (f : Fin 128) :
    k0_pay3 (F := Ideal) x0 x1 x2 x3 x4 (ix2 p f) = hidden (mat x0) (mat x1) (vec x2) (mat x3) (vec x4) p f := by
  unfold QuantSwiGLU.hidden QuantSwiGLU.silu
  rw [← proj_tile_apply x0 x1 x2 p f, ← proj_tile_apply x0 x3 x4 p f]
  rfl

/-- The dequantised tile of the second weight matrix at (c, f): (code(c, f) - 128) · scale(c). -/
theorem down_tile_apply (x5 : Vec Ideal S4096x128 .i32) (x6 : Vec Ideal S4096 .f32) (c : Fin 4096) (f : Fin 128) :
    k0_pay4 (F := Ideal) x5 x6 (ix2 c f) = deq (x5 (ix2 c f)) (x6 (ix1 c)) :=
  deq_tile_apply x5 x6 shapeCasts_S4096_S4096x1 broadcasts_S4096x1_S4096x128 c f

/-- The value the body stores, at an entry y = (p, c): what the output block held there plus the sum over the tile's
    128 positions of the gated entry (p, position) times the second tile's entry (c, position). -/
theorem stored_apply (a : FVec Ideal S256x128 .bf16) (b : FVec Ideal S4096x128 .bf16) (acc : Vec Ideal S256x4096 .f32)
    (y : S256x4096.Idx) :
    k0_pay1 (F := Ideal) a b (constant S256x4096 .f32 0x00000000#32) acc y
      = acc y + ∑ f : Fin 128, a (ix2 (n0 := 256) (n1 := 128) (y 0) f) * b (ix2 (n0 := 4096) (n1 := 128) (y 1) f) := by
  rw [← LibMatmulNT.matmul_nt_zero_apply dot_S256x128_S4096x128_S256x4096_1_1_0_0_n_n rfl rfl
    down_lhs0 down_lhs1 down_rhs0 down_rhs1 none a b y]
  show FloatOps.addf (F := Ideal) (φ := .f32) (shapeCast S256x4096 acc shapeCasts_S256x4096_S256x4096 y) _ = _
  rw [shapeCast_self]
  rfl

/-- One grid point's contribution to entry (p, c) of its output block, in the layer's terms. If the point's blocks are
    the input's rows 256·R + ·, the rows 128·s + · of the first and third weight matrices with their scales, the
    columns 128·s + · of the second weight matrix, and all of the second matrix's scales, then the sum over the tile's
    128 positions of gated entry times second-tile entry is the sum of the layer's terms of the output entry
    (256·R + p, c) at the inner positions 128·s + f. -/
theorem contrib_eq_terms
    (x0 : Vec Ideal S256x4096 .f32) (x1 : Vec Ideal S128x4096 .i32) (x2 : Vec Ideal S128 .f32)
    (x3 : Vec Ideal S128x4096 .i32) (x4 : Vec Ideal S128 .f32) (x5 : Vec Ideal S4096x128 .i32) (x6 : Vec Ideal S4096 .f32)
    (X : Fin 2048 → Fin 4096 → EReal) (Q1 : Fin 14336 → Fin 4096 → BitVec 32) (S1 : Fin 14336 → EReal)
    (Q3 : Fin 14336 → Fin 4096 → BitVec 32) (S3 : Fin 14336 → EReal)
    (Q2 : Fin 4096 → Fin 14336 → BitVec 32) (S2 : Fin 4096 → EReal)
    (R s : ℕ) (hR : R < 8) (hs : s < 112)
    (h0 : ∀ (p : Fin 256) (j : Fin 4096), x0 (ix2 p j) = X ⟨256 * R + p.val, by have := p.isLt; omega⟩ j)
    (h1 : ∀ (f : Fin 128) (j : Fin 4096), x1 (ix2 f j) = Q1 ⟨128 * s + f.val, by have := f.isLt; omega⟩ j)
    (h2 : ∀ f : Fin 128, x2 (ix1 f) = S1 ⟨128 * s + f.val, by have := f.isLt; omega⟩)
    (h3 : ∀ (f : Fin 128) (j : Fin 4096), x3 (ix2 f j) = Q3 ⟨128 * s + f.val, by have := f.isLt; omega⟩ j)
    (h4 : ∀ f : Fin 128, x4 (ix1 f) = S3 ⟨128 * s + f.val, by have := f.isLt; omega⟩)
    (h5 : ∀ (cc : Fin 4096) (f : Fin 128), x5 (ix2 cc f) = Q2 cc ⟨128 * s + f.val, by have := f.isLt; omega⟩)
    (h6 : ∀ cc : Fin 4096, x6 (ix1 cc) = S2 cc)
    (p : Fin 256) (cc : Fin 4096) :
    ∑ f : Fin 128, k0_pay3 (F := Ideal) x0 x1 x2 x3 x4 (ix2 p f) * k0_pay4 (F := Ideal) x5 x6 (ix2 cc f)
      = ∑ f : Fin 128, term X Q1 S1 Q3 S3 Q2 S2 ⟨256 * R + p.val, by have := p.isLt; omega⟩ cc (128 * s + f.val) := by
  refine Finset.sum_congr rfl fun f _ => ?_
  have hf : 128 * s + f.val < 14336 := by have := f.isLt; omega
  rw [gated_apply, down_tile_apply, term_of_lt X Q1 S1 Q3 S3 Q2 S2 _ cc _ hf, h5 cc f, h6 cc]
  exact congrArg (· * deq (Q2 cc ⟨128 * s + f.val, hf⟩) (S2 cc))
    (hidden_congr (mat x0) X (mat x1) Q1 (vec x2) S1 (mat x3) Q3 (vec x4) S3 p _ f ⟨128 * s + f.val, hf⟩
      (fun j => h0 p j) (fun j => h1 f j) (h2 f) (fun j => h3 f j) (h4 f))

/-- The value a reset point stores first is zero everywhere. -/
theorem cleared_apply (y : S256x4096.Idx) : k0_pay2 (F := Ideal) y = 0 := by
  show Ideal.ofBits .f32 0x00000000#32 = 0
  exact Ideal.ofBits_zero_f32

end Cert.KernelIdeal.Tile

end
-- ==== Proof.KernelIsLayer.lean ====
/-
  The kernel computes the quantised gated feed-forward layer.

  The grid has 8 × 112 points, visited row block by row block: point t works on the input's row block t / 112 and on
  the tile t % 112 of the inner axis. The 112 points of one row block share one output block, which the first of them
  clears and every one of them adds its contribution to; the last writes it back. So the array ends holding, at (r, c),

      0 + Σ_{s < 112} (contribution of point 112·(r / 256) + s at (r % 256, c)),

  the fold of the run of points unrolled. Three readings turn this into the layer's output entry:

  * the block index maps, decided once over the grid: the input block of point t starts at row 256·(t / 112), the
    tiles of the first and third weight matrices and of their scales at row 128·(t % 112), the tile of the second
    weight matrix at column 128·(t % 112), and the second matrix's scales are taken whole — a block's entry is the
    array's entry at block index × block size + the coordinate inside the block;
  * with these, the contribution of point 112·R + s at (p, c) is the sum of the layer's terms of the output entry
    (256·R + p, c) at the inner positions 128·s + f, f < 128 (the per-tile reading of the body);
  * the sum over s < 112 of those sums is the sum over all 14336 = 112 · 128 inner positions, since a finite sum may
    be taken tile by tile; and 0 + x = x.

  Nothing is asked to be finite: the steps are readings at an index and regroupings of one finite sum.
-/
import proofs.«149186_j30820685316560_1_alg».proof.Proof.Gen.KernelIdeal.Value
import proofs.«149186_j30820685316560_1_alg».proof.Proof.KernelTile

noncomputable section

namespace Cert.KernelIdeal.LayerValue

open Cert.KernelIdeal Cert.KernelIdeal.Gen Cert.KernelIdeal.Value Cert.KernelIdeal.Tile
open Idealize.ShloMosaic Idealize.ShloMosaic.ValueIdx Idealize.ShloMosaic.TcCoe Idealize.SL.Sem
open QuantSwiGLU

variable (m : (ℓ : Loc nD τ sig) → Buf (Elt Ideal) ℓ) (c : Dev nD)

/-! ## The launch arrays by coordinates -/

abbrev aX : Fin 2048 → Fin 4096 → EReal := mat (A := 2048) (B := 4096) (m ((c : Thread nD τ).loc main_arg0))
abbrev aQ1 : Fin 14336 → Fin 4096 → BitVec 32 := mat (A := 14336) (B := 4096) (m ((c : Thread nD τ).loc main_arg1))
abbrev aS1 : Fin 14336 → EReal := vec (A := 14336) (m ((c : Thread nD τ).loc main_arg2))
abbrev aQ3 : Fin 14336 → Fin 4096 → BitVec 32 := mat (A := 14336) (B := 4096) (m ((c : Thread nD τ).loc main_arg3))
abbrev aS3 : Fin 14336 → EReal := vec (A := 14336) (m ((c : Thread nD τ).loc main_arg4))
abbrev aQ2 : Fin 4096 → Fin 14336 → BitVec 32 := mat (A := 4096) (B := 14336) (m ((c : Thread nD τ).loc main_arg5))
abbrev aS2 : Fin 4096 → EReal := vec (A := 4096) (m ((c : Thread nD τ).loc main_arg6))

/-! ## The block index maps over the grid -/

/-- The printed index maps, decided over the 896 grid points: which block of its array each window stages at point t. -/
theorem block_indices : ∀ t : Fin cfg0.N,
    win0_0.index t (0 : Fin 2) = t.val / 112 ∧ win0_0.index t (1 : Fin 2) = 0
    ∧ win0_1.index t (0 : Fin 2) = t.val % 112 ∧ win0_1.index t (1 : Fin 2) = 0
    ∧ win0_2.index t (0 : Fin 1) = t.val % 112
    ∧ win0_3.index t (0 : Fin 2) = t.val % 112 ∧ win0_3.index t (1 : Fin 2) = 0
    ∧ win0_4.index t (0 : Fin 1) = t.val % 112
    ∧ win0_5.index t (0 : Fin 2) = 0 ∧ win0_5.index t (1 : Fin 2) = t.val % 112
    ∧ win0_6.index t (0 : Fin 1) = 0 :=
  (by decide +kernel : ∀ t : Fin grid0.N, _)

/-! ## A block's entry is the array's entry -/

/-- The input block of a point of row block R at (p, j): the input at row 256·R + p. -/
theorem input_block (t : Fin cfg0.N) (R : ℕ) (hq : t.val / 112 = R) (hR : R < 8) (p : Fin 256) (j : Fin 4096) :
    iblk m c 0 t (ix2 p j) = aX m c ⟨256 * R + p.val, by have := p.isLt; omega⟩ j := by
  obtain ⟨e0, e1, -⟩ := block_indices t
  subst hq
  show V m c main_arg0 (((cfg0.win 0).blk t).view.emb (ix2 p j))
    = V m c main_arg0 (ix2 (n0 := 2048) (n1 := 4096) ⟨256 * (t.val / 112) + p.val, by have := p.isLt; omega⟩ j)
  refine congrArg (V m c main_arg0) (funext fun a => Fin.ext ?_)
  match a with
  | ⟨0, _⟩ => show win0_0.index t (0 : Fin 2) * 256 + 1 * p.val = 256 * (t.val / 112) + p.val; rw [e0]; omega
  | ⟨1, _⟩ => show win0_0.index t (1 : Fin 2) * 4096 + 1 * j.val = j.val; rw [e1]; omega

/-- The first weight matrix's tile of a point of inner tile s at (f, j): the matrix at row 128·s + f. -/
theorem w1_block (t : Fin cfg0.N) (s : ℕ) (hm : t.val % 112 = s) (hs : s < 112) (f : Fin 128) (j : Fin 4096) :
    iblk m c 1 t (ix2 f j) = aQ1 m c ⟨128 * s + f.val, by have := f.isLt; omega⟩ j := by
  obtain ⟨-, -, e0, e1, -⟩ := block_indices t
  subst hm
  show V m c main_arg1 (((cfg0.win 1).blk t).view.emb (ix2 f j))
    = V m c main_arg1 (ix2 (n0 := 14336) (n1 := 4096) ⟨128 * (t.val % 112) + f.val, by have := f.isLt; omega⟩ j)
  refine congrArg (V m c main_arg1) (funext fun a => Fin.ext ?_)
  match a with
  | ⟨0, _⟩ => show win0_1.index t (0 : Fin 2) * 128 + 1 * f.val = 128 * (t.val % 112) + f.val; rw [e0]; omega
  | ⟨1, _⟩ => show win0_1.index t (1 : Fin 2) * 4096 + 1 * j.val = j.val; rw [e1]; omega

/-- The first scale vector's tile at f: the scale of row 128·s + f. -/
theorem s1_block (t : Fin cfg0.N) (s : ℕ) (hm : t.val % 112 = s) (hs : s < 112) (f : Fin 128) :
    iblk m c 2 t (ix1 f) = aS1 m c ⟨128 * s + f.val, by have := f.isLt; omega⟩ := by
  obtain ⟨-, -, -, -, e0, -⟩ := block_indices t
  subst hm
  show V m c main_arg2 (((cfg0.win 2).blk t).view.emb (ix1 f))
    = V m c main_arg2 (ix1 (n := 14336) ⟨128 * (t.val % 112) + f.val, by have := f.isLt; omega⟩)
  refine congrArg (V m c main_arg2) (funext fun a => Fin.ext ?_)
  match a with
  | ⟨0, _⟩ => show win0_2.index t (0 : Fin 1) * 128 + 1 * f.val = 128 * (t.val % 112) + f.val; rw [e0]; omega

/-- The third weight matrix's tile at (f, j): the matrix at row 128·s + f. -/
theorem w3_block (t : Fin cfg0.N) (s : ℕ) (hm : t.val % 112 = s) (hs : s < 112) (f : Fin 128) (j : Fin 4096) :
    iblk m c 3 t (ix2 f j) = aQ3 m c ⟨128 * s + f.val, by have := f.isLt; omega⟩ j := by
  obtain ⟨-, -, -, -, -, e0, e1, -⟩ := block_indices t
  subst hm
  show V m c main_arg3 (((cfg0.win 3).blk t).view.emb (ix2 f j))
    = V m c main_arg3 (ix2 (n0 := 14336) (n1 := 4096) ⟨128 * (t.val % 112) + f.val, by have := f.isLt; omega⟩ j)
  refine congrArg (V m c main_arg3) (funext fun a => Fin.ext ?_)
  match a with
  | ⟨0, _⟩ => show win0_3.index t (0 : Fin 2) * 128 + 1 * f.val = 128 * (t.val % 112) + f.val; rw [e0]; omega
  | ⟨1, _⟩ => show win0_3.index t (1 : Fin 2) * 4096 + 1 * j.val = j.val; rw [e1]; omega

/-- The third scale vector's tile at f: the scale of row 128·s + f. -/
theorem s3_block (t : Fin cfg0.N) (s : ℕ) (hm : t.val % 112 = s) (hs : s < 112) (f : Fin 128) :
    iblk m c 4 t (ix1 f) = aS3 m c ⟨128 * s + f.val, by have := f.isLt; omega⟩ := by
  obtain ⟨-, -, -, -, -, -, -, e0, -⟩ := block_indices t
  subst hm
  show V m c main_arg4 (((cfg0.win 4).blk t).view.emb (ix1 f))
    = V m c main_arg4 (ix1 (n := 14336) ⟨128 * (t.val % 112) + f.val, by have := f.isLt; omega⟩)
  refine congrArg (V m c main_arg4) (funext fun a => Fin.ext ?_)
  match a with
  | ⟨0, _⟩ => show win0_4.index t (0 : Fin 1) * 128 + 1 * f.val = 128 * (t.val % 112) + f.val; rw [e0]; omega

/-- The second weight matrix's tile at (cc, f): the matrix at column 128·s + f. -/
theorem w2_block (t : Fin cfg0.N) (s : ℕ) (hm : t.val % 112 = s) (hs : s < 112) (cc : Fin 4096) (f : Fin 128) :
    iblk m c 5 t (ix2 cc f) = aQ2 m c cc ⟨128 * s + f.val, by have := f.isLt; omega⟩ := by
  obtain ⟨-, -, -, -, -, -, -, -, e0, e1, -⟩ := block_indices t
  subst hm
  show V m c main_arg5 (((cfg0.win 5).blk t).view.emb (ix2 cc f))
    = V m c main_arg5 (ix2 (n0 := 4096) (n1 := 14336) cc ⟨128 * (t.val % 112) + f.val, by have := f.isLt; omega⟩)
  refine congrArg (V m c main_arg5) (funext fun a => Fin.ext ?_)
  match a with
  | ⟨0, _⟩ => show win0_5.index t (0 : Fin 2) * 4096 + 1 * cc.val = cc.val; rw [e0]; omega
  | ⟨1, _⟩ => show win0_5.index t (1 : Fin 2) * 128 + 1 * f.val = 128 * (t.val % 112) + f.val; rw [e1]; omega

/-- The second scale vector is staged whole: its block at cc is the scale of row cc. -/
theorem s2_block (t : Fin cfg0.N) (cc : Fin 4096) : iblk m c 6 t (ix1 cc) = aS2 m c cc := by
  obtain ⟨-, -, -, -, -, -, -, -, -, -, e0⟩ := block_indices t
  show V m c main_arg6 (((cfg0.win 6).blk t).view.emb (ix1 cc)) = V m c main_arg6 (ix1 (n := 4096) cc)
  refine congrArg (V m c main_arg6) (funext fun a => Fin.ext ?_)
  match a with
  | ⟨0, _⟩ => show win0_6.index t (0 : Fin 1) * 4096 + 1 * cc.val = cc.val; rw [e0]; omega

/-! ## A run of 112 points, unrolled -/

/-- Point n's contribution to its output block at y: the sum over the tile's 128 positions of the gated entry times
    the second tile's entry (a function of every natural; zero past the grid, where it is never read). -/
def addend (n : ℕ) (y : S256x4096.Idx) : EReal :=
  if h : n < cfg0.N then
    ∑ f : Fin 128,
      k0_pay3 (F := Ideal) (iblk m c 0 ⟨n, h⟩) (iblk m c 1 ⟨n, h⟩) (iblk m c 2 ⟨n, h⟩) (iblk m c 3 ⟨n, h⟩) (iblk m c 4 ⟨n, h⟩)
          (ix2 (n0 := 256) (n1 := 128) (y 0) f)
        * k0_pay4 (F := Ideal) (iblk m c 5 ⟨n, h⟩) (iblk m c 6 ⟨n, h⟩) (ix2 (n0 := 4096) (n1 := 128) (y 1) f)
  else 0

/-- The first point of a run leaves zero plus its contribution. -/
theorem reset_apply (b : ℕ) (h : b < cfg0.N) (y : S256x4096.Idx) : reset7 m c b h y = 0 + addend m c b y := by
  unfold reset7 addend
  rw [dif_pos h, stored_apply, cleared_apply]

/-- Every later point adds its contribution to what the point before left. -/
theorem step_apply (n : ℕ) (h : n < cfg0.N) (acc : S256x4096.Idx → EReal) (y : S256x4096.Idx) :
    step7 m c n h acc y = acc y + addend m c n y := by
  unfold step7 addend
  rw [dif_pos h, stored_apply]

/-- After its 112 points, row block R's output block holds zero plus the sum of the points' contributions. -/
theorem fold_apply (R : ℕ) (h : 112 * R + 111 < cfg0.N) (y : S256x4096.Idx) :
    Pipeline.accAt (reset7 m c) (step7 m c) (112 * R) 111 h y
      = 0 + ∑ s ∈ Finset.range 112, addend m c (112 * R + s) y :=
  Pipeline.accAt_add_apply (reset7 m c) (step7 m c) (fun _ => 0) (addend m c) (112 * R) 111
    (fun h i => reset_apply m c (112 * R) h i) (fun n h acc i _ _ => step_apply m c n h acc i) 111 le_rfl h y

/-- The contribution of point 112·R + s at (p, cc): the layer's terms of the output entry (256·R + p, cc) at the inner
    positions 128·s + f. -/
theorem addend_eq_terms (R s : ℕ) (hR : R < 8) (hs : s < 112) (p : Fin 256) (cc : Fin 4096) :
    addend m c (112 * R + s) (ix2 (n0 := 256) (n1 := 4096) p cc)
      = ∑ f : Fin 128, term (aX m c) (aQ1 m c) (aS1 m c) (aQ3 m c) (aS3 m c) (aQ2 m c) (aS2 m c)
          ⟨256 * R + p.val, by have := p.isLt; omega⟩ cc (128 * s + f.val) := by
  have hN : 112 * R + s < cfg0.N := by rw [show cfg0.N = 896 from N_0]; omega
  have hq : (112 * R + s) / 112 = R := by omega
  have hm : (112 * R + s) % 112 = s := by omega
  unfold addend
  rw [dif_pos hN]
  exact contrib_eq_terms (iblk m c 0 ⟨112 * R + s, hN⟩) (iblk m c 1 ⟨112 * R + s, hN⟩) (iblk m c 2 ⟨112 * R + s, hN⟩)
    (iblk m c 3 ⟨112 * R + s, hN⟩) (iblk m c 4 ⟨112 * R + s, hN⟩) (iblk m c 5 ⟨112 * R + s, hN⟩) (iblk m c 6 ⟨112 * R + s, hN⟩)
    (aX m c) (aQ1 m c) (aS1 m c) (aQ3 m c) (aS3 m c) (aQ2 m c) (aS2 m c) R s hR hs
    (fun p j => input_block m c ⟨112 * R + s, hN⟩ R hq hR p j)
    (fun f j => w1_block m c ⟨112 * R + s, hN⟩ s hm hs f j)
    (fun f => s1_block m c ⟨112 * R + s, hN⟩ s hm hs f)
    (fun f j => w3_block m c ⟨112 * R + s, hN⟩ s hm hs f j)
    (fun f => s3_block m c ⟨112 * R + s, hN⟩ s hm hs f)
    (fun cc f => w2_block m c ⟨112 * R + s, hN⟩ s hm hs cc f)
    (fun cc => s2_block m c ⟨112 * R + s, hN⟩ cc)
    p cc

/-! ## The result array -/

/-- The array the kernel leaves, at (r, cc): the layer's output entry. Row r lies in row block r / 256 at place
    r % 256, so the block's fold there is zero plus the 112 tiles' sums of the entry's terms — all of its terms. -/
theorem result_apply (r : Fin 2048) (cc : Fin 4096) :
    (G7 m c (ix2 (n0 := 2048) (n1 := 4096) r cc) : EReal)
      = out (aX m c) (aQ1 m c) (aS1 m c) (aQ3 m c) (aS3 m c) (aQ2 m c) (aS2 m c) r cc := by
  have hr : r.val < 2048 := r.isLt
  have hc : cc.val < 4096 := cc.isLt
  have hrun : run7Of (ix2 (n0 := 2048) (n1 := 4096) r cc) = r.val / 256 := by
    show 1 * (r.val / 256 - 0) + 1 * (cc.val / 4096 - 0) = r.val / 256
    omega
  have hlt : 112 * run7Of (ix2 (n0 := 2048) (n1 := 4096) r cc) + 111 < cfg0.N := by
    rw [hrun, show cfg0.N = 896 from N_0]; omega
  have hR : run7Of (ix2 (n0 := 2048) (n1 := 4096) r cc) < 8 := by rw [hrun]; omega
  have hl : loc7Of (ix2 (n0 := 2048) (n1 := 4096) r cc)
      = ix2 (n0 := 256) (n1 := 4096) ⟨r.val % 256, Nat.mod_lt _ (by decide)⟩ cc := funext fun a => by
    match a with
    | ⟨0, _⟩ => rfl
    | ⟨1, _⟩ => exact Fin.ext (Nat.mod_eq_of_lt hc)
  have e0 : (⟨256 * run7Of (ix2 (n0 := 2048) (n1 := 4096) r cc) + r.val % 256, by
      rw [hrun]; omega⟩ : Fin 2048) = r := Fin.ext (by show 256 * run7Of (ix2 r cc) + r.val % 256 = r.val; rw [hrun]; omega)
  have hsum : (∑ s ∈ Finset.range 112, addend m c (112 * run7Of (ix2 (n0 := 2048) (n1 := 4096) r cc) + s)
        (ix2 (n0 := 256) (n1 := 4096) ⟨r.val % 256, Nat.mod_lt _ (by decide)⟩ cc) : EReal)
      = out (aX m c) (aQ1 m c) (aS1 m c) (aQ3 m c) (aS3 m c) (aQ2 m c) (aS2 m c) r cc := by
    rw [out_eq_tiles 112 128 rfl (aX m c) (aQ1 m c) (aS1 m c) (aQ3 m c) (aS3 m c) (aQ2 m c) (aS2 m c) r cc]
    refine Finset.sum_congr rfl fun s hs => ?_
    rw [addend_eq_terms m c _ s hR (Finset.mem_range.mp hs) _ cc, e0]
  unfold G7
  rw [dif_pos hlt, fold_apply m c _ hlt _, zero_add, hl]
  exact hsum

end Cert.KernelIdeal.LayerValue

end
-- ==== Proof.lean ====
/-
  The kernel and the reference compute one function: the quantised gated feed-forward layer

      out(r, c) = Σ_f  silu(Σ_j x(r, j) · W1(f, j)) · (Σ_j x(r, j) · W3(f, j)) · W2(c, f),

  each weight W(a, b) = (code(a, b) - 128) · scale(a), read on the extended reals with exact operations (where a change
  of float format is the identity).

  * The reference dequantises the matrices whole and applies three matrix products; its logistic function is spelt
    "one over one plus the exponential of the negation", which on the extended reals is the logistic function itself
    (Proof/ReferenceIsLayer.lean over Proof/QuantSwiGLU.lean).
  * The kernel walks an 8 × 112 grid: 256 input rows at a time, and for them the 14336 inner positions in 112 tiles of
    128. Each point dequantises its tiles, forms the gated 256 × 128 block and adds its product with the second
    matrix's tile to the output block, which the first point of a row block clears (Proof/KernelTile.lean). The output
    entry is therefore zero plus the 112 tiles' partial sums, and a finite sum may be taken tile by tile
    (Proof/KernelIsLayer.lean).

  Neither step asks an entry to be finite — they are readings of operations at an index and a regrouping of one finite
  sum, valid in any commutative monoid — so the precondition is never opened. The idealisation rewrote no operation,
  so the kernel's idealisation is the kernel's own text.
-/
import proofs.«149186_j30820685316560_1_alg».proof.Defs
import proofs.«149186_j30820685316560_1_alg».proof.Proof.Gen.Kernel.Frame
import proofs.«149186_j30820685316560_1_alg».proof.Proof.Gen.KernelIdeal.Value
import proofs.«149186_j30820685316560_1_alg».proof.Proof.Gen.Pre_finite_inputs
import proofs.«149186_j30820685316560_1_alg».proof.Proof.Gen.ReferenceIdeal.Run
import proofs.«149186_j30820685316560_1_alg».proof.Proof.Gen.ReferenceIdeal.Read
import proofs.«149186_j30820685316560_1_alg».proof.Proof.ReferenceIsLayer
import proofs.«149186_j30820685316560_1_alg».proof.Proof.KernelIsLayer
import Idealize.ShloMosaic.Adequacy
import Idealize.ShloMosaic.Init

noncomputable section

namespace Cert.Proof

open Idealize.ShloMosaic Idealize.SL.Sem

/-- The idealised kernel terminates without a fault and leaves its arguments as they were: its run with the result
    dropped. -/
theorem frame_KernelIdeal : frame_KernelIdeal := fun m ρ _ =>
  (θ_run Cert.KernelIdeal.defs _ _).mono (fun _ h c => (h c).2) (Cert.KernelIdeal.Value.run (F := Ideal) m ρ)

/-- The same for the idealised reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the layer's output in their result arrays: entry
    (r, c) of the kernel's array is the fold of row block r / 256 read at r % 256, which is out(r, c); entry (r, c) of
    the reference's is its last matrix product read there, which is out(r, c) too. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨r, cc, rfl⟩ : ∃ (r : Fin 2048) (cc : Fin 4096), i = ValueIdx.ix2 r cc := ⟨i 0, i 1, ValueIdx.eq_ix2 i⟩
  exact (Cert.ReferenceIdeal.RefValue.result_apply
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) r cc).trans
    (Cert.KernelIdeal.LayerValue.result_apply m c r cc).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
